-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10_1)) (v1 : (c : Dev Cert.KernelIdeal.nD) → Buf (Elt Ideal) ((c.tc : Thread Cert.KernelIdeal.nD Cert.KernelIdeal.τ).loc Cert.KernelIdeal.main_v10_2)) (v2 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_1) = v0 c
          ∧ r.2.mem ((c.tc : Thread Cert.KernelIdeal.nD Cert.KernelIdeal.τ).loc Cert.KernelIdeal.main_v10_2) = v1 c
          ∧ r.2.mem ((c.tc : Thread Cert.KernelIdeal.nD Cert.KernelIdeal.τ).loc Cert.KernelIdeal.main_v10_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S_ : Shape := ⟨0, ![]⟩

class Facts : Prop where
  bcast_S_S4096x5000 : S_.BroadcastsInDim S4096x5000 (![] : Fin 0 → Fin S4096x5000.rank)
  reducesTo_S4096x5000_S_d0_1 : S4096x5000.ReducesTo [0, 1] S_
  h_S_ : 0 < S_.numel
  bcast_S_S2000x5000 : S_.BroadcastsInDim S2000x5000 (![] : Fin 0 → Fin S2000x5000.rank)
  reducesTo_S2000x5000_S_d0_1 : S2000x5000.ReducesTo [0, 1] S_
  bcast_S_S2000 : S_.BroadcastsInDim S2000 (![] : Fin 0 → Fin S2000.rank)
  reducesTo_S2000_S_d0 : S2000.ReducesTo [0] S_
  bcast_S_S5000 : S_.BroadcastsInDim S5000 (![] : Fin 0 → Fin S5000.rank)
  reducesTo_S5000_S_d0 : S5000.ReducesTo [0] S_
  bcast_S_S50x2000 : S_.BroadcastsInDim S50x2000 (![] : Fin 0 → Fin S50x2000.rank)
  reducesTo_S50x2000_S_d0_1 : S50x2000.ReducesTo [0, 1] S_

variable [Facts]

def fn_part1 {F : FTy → Type} [FloatOps F] (main_arg4 : FVec F S5000 .f32) (main_arg5 : FVec F S50x2000 .f32) (main_v13 : IVec S_ 1) (main_v16 : IVec S2000 1) : IVec S_ 1 :=
  let main_c_5 : IVec S_ 1 := constantI S_ 1 1#1
  let main_v17 : IVec S_ 1 := (fun x v => Host.reduce IntOp.andi x v reducesTo_S2000_S_d0 h_S_) main_v16 main_c_5
  let main_v18 : IVec S_ 1 := andi main_v13 main_v17
  let main_v19 : FVec F S5000 .f32 := Host.absf main_arg4
  let main_cst_6 : FVec F S_ .f32 := constant S_ .f32 0x7F800000#32
  let main_v20 : FVec F S5000 .f32 := broadcastInDim S5000 ![] bcast_S_S5000 main_cst_6
  let main_v21 : IVec S5000 1 := cmpf .olt main_v19 main_v20
  let main_c_7 : IVec S_ 1 := constantI S_ 1 1#1
  let main_v22 : IVec S_ 1 := (fun x v => Host.reduce IntOp.andi x v reducesTo_S5000_S_d0 h_S_) main_v21 main_c_7
  let main_v23 : IVec S_ 1 := andi main_v18 main_v22
  let main_v24 : FVec F S50x2000 .f32 := Host.absf main_arg5
  let main_cst_8 : FVec F S_ .f32 := constant S_ .f32 0x7F800000#32
  let main_v25 : FVec F S50x2000 .f32 := broadcastInDim S50x2000 ![] bcast_S_S50x2000 main_cst_8
  let main_v26 : IVec S50x2000 1 := cmpf .olt main_v24 main_v25
  let main_c_9 : IVec S_ 1 := constantI S_ 1 1#1
  let main_v27 : IVec S_ 1 := (fun x v => Host.reduce IntOp.andi x v reducesTo_S50x2000_S_d0_1 h_S_) main_v26 main_c_9
  let main_v28 : IVec S_ 1 := andi main_v23 main_v27
  main_v28

def fn {F : FTy → Type} [FloatOps F] (main_arg0 : FVec F S4096x5000 .f32) (main_arg1 : FVec F S2000x5000 .f32) (main_arg2 : FVec F S2000 .f32) (main_arg3 : FVec F S2000 .f32) (main_arg4 : FVec F S5000 .f32) (main_arg5 : FVec F S50x2000 .f32) : IVec S_ 1 :=
  let main_v0 : FVec F S4096x5000 .f32 := Host.absf main_arg0
  let main_cst : FVec F S_ .f32 := constant S_ .f32 0x7F800000#32
  let main_v1 : FVec F S4096x5000 .f32 := broadcastInDim S4096x5000 ![] bcast_S_S4096x5000 main_cst
  let main_v2 : IVec S4096x5000 1 := cmpf .olt main_v0 main_v1
  let main_c : IVec S_ 1 := constantI S_ 1 1#1
  let main_v3 : IVec S_ 1 := (fun x v => Host.reduce IntOp.andi x v reducesTo_S4096x5000_S_d0_1 h_S_) main_v2 main_c
  let main_v4 : FVec F S2000x5000 .f32 := Host.absf main_arg1
  let main_cst_0 : FVec F S_ .f32 := constant S_ .f32 0x7F800000#32
  let main_v5 : FVec F S2000x5000 .f32 := broadcastInDim S2000x5000 ![] bcast_S_S2000x5000 main_cst_0
  let main_v6 : IVec S2000x5000 1 := cmpf .olt main_v4 main_v5
  let main_c_1 : IVec S_ 1 := constantI S_ 1 1#1
  let main_v7 : IVec S_ 1 := (fun x v => Host.reduce IntOp.andi x v reducesTo_S2000x5000_S_d0_1 h_S_) main_v6 main_c_1
  let main_v8 : IVec S_ 1 := andi main_v3 main_v7
  let main_v9 : FVec F S2000 .f32 := Host.absf main_arg2
  let main_cst_2 : FVec F S_ .f32 := constant S_ .f32 0x7F800000#32
  let main_v10 : FVec F S2000 .f32 := broadcastInDim S2000 ![] bcast_S_S2000 main_cst_2
  let main_v11 : IVec S2000 1 := cmpf .olt main_v9 main_v10
  let main_c_3 : IVec S_ 1 := constantI S_ 1 1#1
  let main_v12 : IVec S_ 1 := (fun x v => Host.reduce IntOp.andi x v reducesTo_S2000_S_d0 h_S_) main_v11 main_c_3
  let main_v13 : IVec S_ 1 := andi main_v8 main_v12
  let main_v14 : FVec F S2000 .f32 := Host.absf main_arg3
  let main_cst_4 : FVec F S_ .f32 := constant S_ .f32 0x7F800000#32
  let main_v15 : FVec F S2000 .f32 := broadcastInDim S2000 ![] bcast_S_S2000 main_cst_4
  let main_v16 : IVec S2000 1 := cmpf .olt main_v14 main_v15
  fn_part1 (F := F) main_arg4 main_arg5 main_v13 main_v16
-- ==== Kernel.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S400x5000 : Shape := ⟨2, ![400, 5000]⟩
abbrev S_ : Shape := ⟨0, ![]⟩
abbrev S4096x2000 : Shape := ⟨2, ![4096, 2000]⟩
abbrev S4096x50 : Shape := ⟨2, ![4096, 50]⟩
abbrev S128x5000 : Shape := ⟨2, ![128, 5000]⟩
abbrev S128x2000 : Shape := ⟨2, ![128, 2000]⟩
abbrev S128x50 : Shape := ⟨2, ![128, 50]⟩
abbrev S1x2000 : Shape := ⟨2, ![1, 2000]⟩
abbrev S1x5000 : Shape := ⟨2, ![1, 5000]⟩

abbrev nBuf : Space → Nat
  | .hbm => 22
  | .vmem => 17
  | .smem => 0
  | _ => 0

abbrev bufTy : (tb : Table) → Fin (tcTables nBuf tb) → BufTy
  | .hbm, ⟨0, _⟩ => ⟨S4096x5000, .f32⟩
  | .hbm, ⟨1, _⟩ => ⟨S2000x5000, .f32⟩
  | .hbm, ⟨2, _⟩ => ⟨S2000, .f32⟩
  | .hbm, ⟨3, _⟩ => ⟨S2000, .f32⟩
  | .hbm, ⟨4, _⟩ => ⟨S5000, .f32⟩
  | .hbm, ⟨5, _⟩ => ⟨S50x2000, .f32⟩
  | .hbm, ⟨6, _⟩ => ⟨S2000x5000, .bf16⟩
  | .hbm, ⟨7, _⟩ => ⟨S_, .f32⟩
  | .hbm, ⟨8, _⟩ => ⟨S50x2000, .f32⟩
  | .hbm, ⟨9, _⟩ => ⟨S50x2000, .f32⟩
  | .hbm, ⟨10, _⟩ => ⟨S50x2000, .f32⟩
  | .hbm, ⟨11, _⟩ => ⟨S50x2000, .f32⟩
  | .hbm, ⟨12, _⟩ => ⟨S_, .f32⟩
  | .hbm, ⟨13, _⟩ => ⟨S50x2000, .f32⟩
  | .hbm, ⟨14, _⟩ => ⟨S50x2000, .f32⟩
  | .hbm, ⟨15, _⟩ => ⟨S_, .f32⟩
  | .hbm, ⟨16, _⟩ => ⟨S50x2000, .f32⟩
  | .hbm, ⟨17, _⟩ => ⟨S50x2000, .f32⟩
  | .hbm, ⟨18, _⟩ => ⟨S50x2000, .bf16⟩
  | .hbm, ⟨19, _⟩ => ⟨S4096x2000, .f32⟩
  | .hbm, ⟨20, _⟩ => ⟨S4096x5000, .f32⟩
  | .hbm, ⟨21, _⟩ => ⟨S4096x50, .f32⟩
  | .local _ .vmem, ⟨0, _⟩ => ⟨S400x5000, .f32⟩
  | .local _ .vmem, ⟨1, _⟩ => ⟨S400x5000, .f32⟩
  | .local _ .vmem, ⟨2, _⟩ => ⟨S400x5000, .bf16⟩
  | .local _ .vmem, ⟨3, _⟩ => ⟨S400x5000, .bf16⟩
  | .local _ .vmem, ⟨4, _⟩ => ⟨S128x5000, .f32⟩
  | .local _ .vmem, ⟨5, _⟩ => ⟨S128x5000, .f32⟩
  | .local _ .vmem, ⟨6, _⟩ => ⟨S2000x5000, .bf16⟩
  | .local _ .vmem, ⟨7, _⟩ => ⟨S2000, .f32⟩
  | .local _ .vmem, ⟨8, _⟩ => ⟨S2000, .f32⟩
  | .local _ .vmem, ⟨9, _⟩ => ⟨S50x2000, .bf16⟩
  | .local _ .vmem, ⟨10, _⟩ => ⟨S5000, .f32⟩
  | .local _ .vmem, ⟨11, _⟩ => ⟨S128x2000, .f32⟩
  | .local _ .vmem, ⟨12, _⟩ => ⟨S128x2000, .f32⟩
  | .local _ .vmem, ⟨13, _⟩ => ⟨S128x5000, .f32⟩
  | .local _ .vmem, ⟨14, _⟩ => ⟨S128x5000, .f32⟩
  | .local _ .vmem, ⟨15, _⟩ => ⟨S128x50, .f32⟩
  | .local _ .vmem, ⟨16, _⟩ => ⟨S128x50, .f32⟩
  | _, _ => ⟨S4096x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x5000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x5000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x5000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50x2000 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S5000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S128x2000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x5000 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x50 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S400x5000_S400x5000_0_0 : ∀ a, (![0, 0] : Fin 2 → Nat) a + S400x5000.size a ≤ S400x5000.size a
  h_S400x5000 : 0 < S400x5000.numel
  natLt_1_32 : 1 < 32
  bitsLt_bf16_f32 : FTy.bits .bf16 < FTy.bits .f32
  packedbf16_S400x5000_S400x5000_0_0 : (Rect.unit (s := S400x5000) ![0, 0] S400x5000.size inb_S400x5000_S400x5000_0_0).PackedRows (EltTy.packing .bf16)
  bcast_S_S50x2000 : S_.BroadcastsInDim S50x2000 (![] : Fin 0 → Fin S50x2000.rank)
  inb_S128x5000_S128x5000_0_0 : ∀ a, (![0, 0] : Fin 2 → Nat) a + S128x5000.size a ≤ S128x5000.size a
  h_S128x5000 : 0 < S128x5000.numel
  inb_S2000x5000_S2000x5000_0_0 : ∀ a, (![0, 0] : Fin 2 → Nat) a + S2000x5000.size a ≤ S2000x5000.size a
  h_S2000x5000 : 0 < S2000x5000.numel
  shapeCasts_S2000x5000_S2000x5000 : S2000x5000.ShapeCasts S2000x5000
  inb_S2000_S2000_0 : ∀ a, (![0] : Fin 1 → Nat) a + S2000.size a ≤ S2000.size a
  h_S2000 : 0 < S2000.numel
  shapeCasts_S2000_S1x2000 : S2000.ShapeCasts S1x2000
  broadcasts_S1x2000_S128x2000 : S1x2000.Broadcasts S128x2000
  inb_S128x2000_S128x2000_0_0 : ∀ a, (![0, 0] : Fin 2 → Nat) a + S128x2000.size a ≤ S128x2000.size a
  h_S128x2000 : 0 < S128x2000.numel
  inb_S5000_S5000_0 : ∀ a, (![0] : Fin 1 → Nat) a + S5000.size a ≤ S5000.size a
  h_S5000 : 0 < S5000.numel
  shapeCasts_S5000_S1x5000 : S5000.ShapeCasts S1x5000
  broadcasts_S1x5000_S128x5000 : S1x5000.Broadcasts S128x5000
  inb_S50x2000_S50x2000_0_0 : ∀ a, (![0, 0] : Fin 2 → Nat) a + S50x2000.size a ≤ S50x2000.size a
  h_S50x2000 : 0 < S50x2000.numel
  shapeCasts_S50x2000_S50x2000 : S50x2000.ShapeCasts S50x2000
  inb_S128x50_S128x50_0_0 : ∀ a, (![0, 0] : Fin 2 → Nat) a + S128x50.size a ≤ S128x50.size a
  h_S128x50 : 0 < S128x50.numel
  dot_S128x5000_S2000x5000_S128x2000_1_1_0_0_n_n_wf : DotDims.WF S128x5000 S2000x5000 S128x2000 [1] [1] [0] [0] [] []
  dot_S128x2000_S2000x5000_S128x5000_1_0_0_1_n_n_wf : DotDims.WF S128x2000 S2000x5000 S128x5000 [1] [0] [0] [1] [] []
  dot_S128x2000_S50x2000_S128x50_1_1_0_0_n_n_wf : DotDims.WF S128x2000 S50x2000 S128x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x5000.size a ≤ S2000x5000.size a
  hwx0_0 : ∀ i : grid0.Coords, EltTy.bits .f32 = 32 ∨ (Rect.block (s := S2000x5000) S400x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x5000.size a ≤ S2000x5000.size a
  hwx0_1 : ∀ i : grid0.Coords, EltTy.bits .bf16 = 32 ∨ (Rect.block (s := S2000x5000) S400x5000.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x5000.size a ≤ S4096x5000.size a
  hwx1_0 : ∀ i : grid1.Coords, EltTy.bits .f32 = 32 ∨ (Rect.block (s := S4096x5000) S128x5000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x5000.size a ≤ S2000x5000.size a
  hwx1_1 : ∀ i : grid1.Coords, EltTy.bits .bf16 = 32 ∨ (Rect.block (s := S2000x5000) S2000x5000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2000.size a ≤ S2000.size a
  hwx1_2 : ∀ i : grid1.Coords, EltTy.bits .f32 = 32 ∨ (Rect.block (s := S2000) S2000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2000.size a ≤ S2000.size a
  hwx1_3 : ∀ i : grid1.Coords, EltTy.bits .f32 = 32 ∨ (Rect.block (s := S2000) S2000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x2000.size a ≤ S50x2000.size a
  hwx1_4 : ∀ i : grid1.Coords, EltTy.bits .bf16 = 32 ∨ (Rect.block (s := S50x2000) S50x2000.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S5000.size a ≤ S5000.size a
  hwx1_5 : ∀ i : grid1.Coords, EltTy.bits .f32 = 32 ∨ (Rect.block (s := S5000) S5000.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x2000.size a ≤ S4096x2000.size a
  hwx1_6 : ∀ i : grid1.Coords, EltTy.bits .f32 = 32 ∨ (Rect.block (s := S4096x2000) S128x2000.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S128x5000.size a ≤ S4096x5000.size a
  hwx1_7 : ∀ i : grid1.Coords, EltTy.bits .f32 = 32 ∨ (Rect.block (s := S4096x5000) S128x5000.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x50.size a ≤ S4096x50.size a
  hwx1_8 : ∀ i : grid1.Coords, EltTy.bits .f32 = 32 ∨ (Rect.block (s := S4096x50) S128x50.size (cc1_transform_8 i) (hinb1_8 i)).WholeWords (EltTy.packing .f32)

variable [Facts₀]

def dot_S128x5000_S2000x5000_S128x2000_1_1_0_0_n_n : DotDims S128x5000 S2000x5000 S128x2000 where
  lhsContracting := [1]
  rhsContracting := [1]
  lhsNonContracting := [0]
  rhsNonContracting := [0]
  lhsBatch := []
  rhsBatch := []
  wf := dot_S128x5000_S2000x5000_S128x2000_1_1_0_0_n_n_wf
def dot_S128x2000_S2000x5000_S128x5000_1_0_0_1_n_n : DotDims S128x2000 S2000x5000 S128x5000 where
  lhsContracting := [1]
  rhsContracting := [0]
  lhsNonContracting := [0]
  rhsNonContracting := [1]
  lhsBatch := []
  rhsBatch := []
  wf := dot_S128x2000_S2000x5000_S128x5000_1_0_0_1_n_n_wf
def dot_S128x2000_S50x2000_S128x50_1_1_0_0_n_n : DotDims S128x2000 S50x2000 S128x50 where
  lhsContracting := [1]
  rhsContracting := [1]
  lhsNonContracting := [0]
  rhsNonContracting := [0]
  lhsBatch := []
  rhsBatch := []
  wf := dot_S128x2000_S50x2000_S128x50_1_1_0_0_n_n_wf

abbrev win0_0 : Pipeline.Window sig grid0 :=
  Pipeline.Window.ofSpec (Memref.whole main_arg1) S400x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S400x5000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S128x5000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2000x5000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S2000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S2000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S50x2000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S5000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10_0) S128x2000.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10_1) S128x5000.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v10_2) S128x50.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4096x5000 : Shape := ⟨2, ![4096, 5000]⟩
abbrev S2000x5000 : Shape := ⟨2, ![2000, 5000]⟩
abbrev S2000 : Shape := ⟨1, ![2000]⟩
abbrev S5000 : Shape := ⟨1, ![5000]⟩
abbrev S50x2000 : Shape := ⟨2, ![50, 2000]⟩
abbrev S_ : Shape := ⟨0, ![]⟩
abbrev S5000x2000 : Shape := ⟨2, ![5000, 2000]⟩
abbrev S4096x2000 : Shape := ⟨2, ![4096, 2000]⟩
abbrev S1x2000 : Shape := ⟨2, ![1, 2000]⟩
abbrev S2000x50 : Shape := ⟨2, ![2000, 50]⟩
abbrev S4096x50 : Shape := ⟨2, ![4096, 50]⟩
abbrev S1x5000 : Shape := ⟨2, ![1, 5000]⟩

abbrev nBuf : Space → Nat
  | .hbm => 43
  | .vmem => 0
  | .smem => 0
  | _ => 0

abbrev bufTy : (tb : Table) → Fin (tcTables nBuf tb) → BufTy
  | .hbm, ⟨0, _⟩ => ⟨S4096x5000, .f32⟩
  | .hbm, ⟨1, _⟩ => ⟨S2000x5000, .f32⟩
  | .hbm, ⟨2, _⟩ => ⟨S2000, .f32⟩
  | .hbm, ⟨3, _⟩ => ⟨S2000, .f32⟩
  | .hbm, ⟨4, _⟩ => ⟨S5000, .f32⟩
  | .hbm, ⟨5, _⟩ => ⟨S50x2000, .f32⟩
  | .hbm, ⟨6, _⟩ => ⟨S_, .f32⟩
  | .hbm, ⟨7, _⟩ => ⟨S2000x5000, .f32⟩
  | .hbm, ⟨8, _⟩ => ⟨S2000x5000, .i1⟩
  | .hbm, ⟨9, _⟩ => ⟨S2000x5000, .f32⟩
  | .hbm, ⟨10, _⟩ => ⟨S5000x2000, .f32⟩
  | .hbm, ⟨11, _⟩ => ⟨S4096x2000, .f32⟩
  | .hbm, ⟨12, _⟩ => ⟨S1x2000, .f32⟩
  | .hbm, ⟨13, _⟩ => ⟨S4096x2000, .f32⟩
  | .hbm, ⟨14, _⟩ => ⟨S4096x2000, .f32⟩
  | .hbm, ⟨15, _⟩ => ⟨S1x2000, .f32⟩
  | .hbm, ⟨16, _⟩ => ⟨S4096x2000, .f32⟩
  | .hbm, ⟨17, _⟩ => ⟨S4096x2000, .f32⟩
  | .hbm, ⟨18, _⟩ => ⟨S_, .f32⟩
  | .hbm, ⟨19, _⟩ => ⟨S4096x2000, .f32⟩
  | .hbm, ⟨20, _⟩ => ⟨S4096x2000, .i1⟩
  | .hbm, ⟨21, _⟩ => ⟨S4096x2000, .f32⟩
  | .hbm, ⟨22, _⟩ => ⟨S_, .f32⟩
  | .hbm, ⟨23, _⟩ => ⟨S50x2000, .f32⟩
  | .hbm, ⟨24, _⟩ => ⟨S50x2000, .f32⟩
  | .hbm, ⟨25, _⟩ => ⟨S50x2000, .f32⟩
  | .hbm, ⟨26, _⟩ => ⟨S50x2000, .f32⟩
  | .hbm, ⟨27, _⟩ => ⟨S_, .f32⟩
  | .hbm, ⟨28, _⟩ => ⟨S50x2000, .f32⟩
  | .hbm, ⟨29, _⟩ => ⟨S50x2000, .f32⟩
  | .hbm, ⟨30, _⟩ => ⟨S_, .f32⟩
  | .hbm, ⟨31, _⟩ => ⟨S50x2000, .f32⟩
  | .hbm, ⟨32, _⟩ => ⟨S50x2000, .f32⟩
  | .hbm, ⟨33, _⟩ => ⟨S2000x50, .f32⟩
  | .hbm, ⟨34, _⟩ => ⟨S4096x50, .f32⟩
  | .hbm, ⟨35, _⟩ => ⟨S4096x5000, .f32⟩
  | .hbm, ⟨36, _⟩ => ⟨S1x5000, .f32⟩
  | .hbm, ⟨37, _⟩ => ⟨S4096x5000, .f32⟩
  | .hbm, ⟨38, _⟩ => ⟨S4096x5000, .f32⟩
  | .hbm, ⟨39, _⟩ => ⟨S_, .f32⟩
  | .hbm, ⟨40, _⟩ => ⟨S4096x5000, .f32⟩
  | .hbm, ⟨41, _⟩ => ⟨S4096x5000, .i1⟩
  | .hbm, ⟨42, _⟩ => ⟨S4096x5000, .f32⟩
  | _, _ => ⟨S4096x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S2000x5000 : S_.BroadcastsInDim S2000x5000 (![] : Fin 0 → Fin S2000x5000.rank)
  transposes_S2000x5000_S5000x2000_1_0 : S2000x5000.Transposes [1, 0] S5000x2000
  bcast_S2000_S1x2000_1 : S2000.BroadcastsInDim S1x2000 (![1] : Fin 1 → Fin S1x2000.rank)
  bcast_S1x2000_S4096x2000_0_1 : S1x2000.BroadcastsInDim S4096x2000 (![0, 1] : Fin 2 → Fin S4096x2000.rank)
  bcast_S_S4096x2000 : S_.BroadcastsInDim S4096x2000 (![] : Fin 0 → Fin S4096x2000.rank)
  bcast_S_S50x2000 : S_.BroadcastsInDim S50x2000 (![] : Fin 0 → Fin S50x2000.rank)
  transposes_S50x2000_S2000x50_1_0 : S50x2000.Transposes [1, 0] S2000x50
  bcast_S5000_S1x5000_1 : S5000.BroadcastsInDim S1x5000 (![1] : Fin 1 → Fin S1x5000.rank)
  bcast_S1x5000_S4096x5000_0_1 : S1x5000.BroadcastsInDim S4096x5000 (![0, 1] : Fin 2 → Fin S4096x5000.rank)
  bcast_S_S4096x5000 : S_.BroadcastsInDim S4096x5000 (![] : Fin 0 → Fin S4096x5000.rank)
  dot_S4096x5000_S5000x2000_S4096x2000_1_0_0_1_n_n_wf : DotDims.WF S4096x5000 S5000x2000 S4096x2000 [1] [0] [0] [1] [] []
  dot_S4096x2000_S2000x50_S4096x50_1_0_0_1_n_n_wf : DotDims.WF S4096x2000 S2000x50 S4096x50 [1] [0] [0] [1] [] []
  dot_S4096x2000_S2000x5000_S4096x5000_1_0_0_1_n_n_wf : DotDims.WF S4096x2000 S2000x5000 S4096x5000 [1] [0] [0] [1] [] []

variable [Facts₀]

def dot_S4096x5000_S5000x2000_S4096x2000_1_0_0_1_n_n : DotDims S4096x5000 S5000x2000 S4096x2000 where
  lhsContracting := [1]
  rhsContracting := [0]
  lhsNonContracting := [0]
  rhsNonContracting := [1]
  lhsBatch := []
  rhsBatch := []
  wf := dot_S4096x5000_S5000x2000_S4096x2000_1_0_0_1_n_n_wf
def dot_S4096x2000_S2000x50_S4096x50_1_0_0_1_n_n : DotDims S4096x2000 S2000x50 S4096x50 where
  lhsContracting := [1]
  rhsContracting := [0]
  lhsNonContracting := [0]
  rhsNonContracting := [1]
  lhsBatch := []
  rhsBatch := []
  wf := dot_S4096x2000_S2000x50_S4096x50_1_0_0_1_n_n_wf
def dot_S4096x2000_S2000x5000_S4096x5000_1_0_0_1_n_n : DotDims S4096x2000 S2000x5000 S4096x5000 where
  lhsContracting := [1]
  rhsContracting := [0]
  lhsNonContracting := [0]
  rhsNonContracting := [1]
  lhsBatch := []
  rhsBatch := []
  wf := dot_S4096x2000_S2000x5000_S4096x5000_1_0_0_1_n_n_wf

class Facts : Prop extends Facts₀ where

variable [Facts]
-- ==== Proof.KernelRun.lean ====
/-
  The kernel program's run, read at every buffer.

  The program is two grid regions with a stretch of host operations between them. Its run from any memory ends,
  nothing faulting, with every buffer that outlives a region holding the contents the fold through the program
  assigns it: the launch memory, then the first region's write-backs, then the host operations' results, then the
  second region's write-backs. The results and the arguments are all among those buffers, so this one statement is
  what every later reading of a result starts from.
-/
import proofs.«164970_j15006615734352_2_alg».proof.Proof.Gen.KernelIdeal.Frame

set_option maxRecDepth 16384

noncomputable section

namespace Cert.Fused

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends, nothing faulting, with each buffer that is not a region's
    scratch at the contents the fold through the program's segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- A result or argument buffer after the run: the fold's contents at it. -/
theorem run_at : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W3 m ρ c (Proc.devRef .tc b)) :=
  (θ_run defs _ _).mono (fun r h c b hb => h c _ (mem_uc b hb)) (run_all m ρ)

end Cert.Fused

end
-- ==== Proof.Spec.lean ====
/-
  The network, entry by entry, on the extended reals.

  A weight matrix W [H, D] is binarized at one half; a batch X [n, D] is encoded as
  z(r, h) = [ (∑_d X(r, d) · Wb(h, d)) + b(h) + a(h) ≥ 1 ], decoded through the same binary weight as
  out(r, d) = [ (∑_h z(r, h) · Wb(h, d)) + a3(d) ≥ 1 ], and classified by cls(r, l) = ∑_h z(r, h) · G(l, h) with G the
  logistic gate 1 / (1 + exp(−(C / ½))) of the classifier weight C. Each is stated for any number n of rows: a row of a
  result depends on the same row of X only, which is how a block of rows computed alone is the block of the whole result.
-/
import Idealize.ShloMosaic.PureOps.Ideal
import Idealize.ShloMosaic.Lib.ValueIdx

noncomputable section

open scoped BigOperators

namespace Cert.Fused

open Idealize.ShloMosaic Idealize.ShloMosaic.ValueIdx

/-- An [a, b] matrix and an [a] vector of extended reals. -/
abbrev Mat (a b : ℕ) : Type := (⟨2, ![a, b]⟩ : Shape).Idx → EReal
abbrev Row (a : ℕ) : Type := (⟨1, ![a]⟩ : Shape).Idx → EReal

/-- The threshold unit: 1 where `x` is at least the number the word `thr` denotes, 0 elsewhere. -/
def fires (thr : BitVec 32) (x : EReal) : EReal :=
  FloatOps.uitofp (F := Ideal) .f32 (FloatOps.cmpf (F := Ideal) (φ := .f32) .oge x (Ideal.ofBits .f32 thr))

/-- The weight binarized at one half. -/
def binW (w : Mat 2000 5000) : Mat 2000 5000 := fun j => fires 0x3F000000#32 (w j)

/-- The hidden code of `n` rows: the biased pre-activation against the binary weight, thresholded at one. -/
def hidB {n : ℕ} (x : Mat n 5000) (wb : Mat 2000 5000) (b a : Row 2000) : Mat n 2000 := fun i =>
  fires 0x3F800000#32 (((∑ k : Fin 5000, x (ix2 (i 0) k) * wb (ix2 (i 1) k)) + b (ix1 (i 1))) + a (ix1 (i 1)))

/-- The reconstruction of `n` rows from their hidden code through the same binary weight, thresholded at one. -/
def outB {n : ℕ} (z : Mat n 2000) (wb : Mat 2000 5000) (a3 : Row 5000) : Mat n 5000 := fun i =>
  fires 0x3F800000#32 ((∑ k : Fin 2000, z (ix2 (i 0) k) * wb (ix2 k (i 1))) + a3 (ix1 (i 1)))

/-- The class scores of `n` rows from their hidden code and the gated classifier weight. -/
def clsB {n : ℕ} (z : Mat n 2000) (fw : Mat 50 2000) : Mat n 50 := fun i =>
  ∑ k : Fin 2000, z (ix2 (i 0) k) * fw (ix2 (i 1) k)

/-- The logistic gate of the classifier weight, 1 / (1 + exp (−(c / ½))), in the host operations' own spelling. -/
def gate (hb : (⟨0, ![]⟩ : Shape).BroadcastsInDim (⟨2, ![50, 2000]⟩ : Shape) (![] : Fin 0 → Fin 2))
    (cw : FVec Ideal (⟨2, ![50, 2000]⟩ : Shape) .f32) : FVec Ideal (⟨2, ![50, 2000]⟩ : Shape) .f32 :=
  Host.divf (broadcastInDim _ ![] hb (constant (F := Ideal) (⟨0, ![]⟩ : Shape) .f32 0x3F800000#32))
    (addf (broadcastInDim _ ![] hb (constant (F := Ideal) (⟨0, ![]⟩ : Shape) .f32 0x3F800000#32))
      (Host.exp (Host.negf (Host.divf cw (broadcastInDim _ ![] hb (constant (F := Ideal) (⟨0, ![]⟩ : Shape) .f32 0x3F000000#32))))))

/-- Rows `r0 … r0 + n − 1` of a matrix of `N` rows. -/
def rowsFrom {N c : ℕ} (n r0 : ℕ) (h : r0 + n ≤ N) (X : Mat N c) : Mat n c := fun j =>
  X (ix2 ⟨r0 + (j 0).val, by have := idx2_lt0 j; omega⟩ (j 1))

/-- The hidden code of a block of rows is that block of the hidden code. -/
theorem hidB_rows {N : ℕ} (n r0 : ℕ) (h : r0 + n ≤ N) (X : Mat N 5000) (wb : Mat 2000 5000) (b a : Row 2000) :
    hidB (rowsFrom n r0 h X) wb b a = rowsFrom n r0 h (hidB X wb b a) := rfl

/-- The reconstruction of a block of rows is that block of the reconstruction. -/
theorem outB_rows {N : ℕ} (n r0 : ℕ) (h : r0 + n ≤ N) (Z : Mat N 2000) (wb : Mat 2000 5000) (a3 : Row 5000) :
    outB (rowsFrom n r0 h Z) wb a3 = rowsFrom n r0 h (outB Z wb a3) := rfl

/-- The class scores of a block of rows are that block of the class scores. -/
theorem clsB_rows {N : ℕ} (n r0 : ℕ) (h : r0 + n ≤ N) (Z : Mat N 2000) (fw : Mat 50 2000) :
    clsB (rowsFrom n r0 h Z) fw = rowsFrom n r0 h (clsB Z fw) := rfl

end Cert.Fused

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.LibGram.lean ====
/-
  Three readings of a matrix at an index, on the extended reals, for any extents.

  * A product of an [n0, K] matrix with an [n1, K] matrix that contracts the LAST axis of both (a Gram-type product
    x · yᵀ) sums, at the result index (r, c), over the positions of a one-axis contraction shape; re-indexed by that
    axis' coordinate it is ∑ k < K, l (r, k) · r (c, k). Stated for any dimension record of those shapes: the record owes
    one contracting axis of extent K (axis 1 on both sides) and free axes that read the result's coordinates.
  * A lane maximum of an [n, k] matrix over its ROWS (axis 0), at column c, is the fold of max from the accumulator's
    value over the n entries of that column; over its COLUMNS (axis 1), at row r, the fold over the row's k entries.
-/
import Idealize.ShloMosaic.PureOps.Ideal.Laws
import Idealize.ShloMosaic.Lib.ValueIdx

noncomputable section

open scoped BigOperators

namespace Idealize.ShloMosaic.Gram

open Idealize.ShloMosaic Idealize.ShloMosaic.ValueIdx

/-- The contraction sum of x · yᵀ at a result index is the sum over the shared last coordinate. -/
theorem sum_contr_last {n0 n1 K : ℕ} {M : Type*} [AddCommMonoid M] [Mul M]
    (D : DotDims (⟨2, ![n0, K]⟩ : Shape) (⟨2, ![n1, K]⟩ : Shape) (⟨2, ![n0, n1]⟩ : Shape))
    (hr : D.contr.rank = 1) (hs : D.contr.size ⟨0, by omega⟩ = K)
    (hlc : D.lhsContracting = [1]) (hrc : D.rhsContracting = [1])
    (hl0 : ∀ j q, (D.lhsIdx j q 0).val = (j 0).val) (hr0 : ∀ j q, (D.rhsIdx j q 0).val = (j 1).val)
    (l : (⟨2, ![n0, K]⟩ : Shape).Idx → M) (r : (⟨2, ![n1, K]⟩ : Shape).Idx → M) (j : (⟨2, ![n0, n1]⟩ : Shape).Idx) :
    ∑ q : D.contr.Idx, l (D.lhsIdx j q) * r (D.rhsIdx j q) = ∑ k : Fin K, l (ix2 (j 0) k) * r (ix2 (j 1) k) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 (j 1) k := funext fun a => Fin.ext (by
    match a with
    | ⟨0, _⟩ => exact hr0 _ _
    | ⟨1, _⟩ => exact h2.trans hk)
  exact congrArg₂ (· * ·) (congrArg l el) (congrArg r er)

/-- The reduced index `c` with the row `r` put back is the matrix index `(r, c)`. -/
theorem lift_cols {n k : ℕ} (h : (⟨2, ![n, k]⟩ : Shape).Reduces [0] ⟨1, ![k]⟩) (c : Fin k) (r : Fin n) :
    h.lift (ix1 c) r = ix2 r c :=
  funext fun a => Fin.ext (by match a with | ⟨0, _⟩ => rfl | ⟨1, _⟩ => rfl)

/-- The reduced index `r` with the column `c` put back is the matrix index `(r, c)`. -/
theorem lift_rows {n k : ℕ} (h : (⟨2, ![n, k]⟩ : Shape).Reduces [1] ⟨1, ![n]⟩) (r : Fin n) (c : Fin k) :
    h.lift (ix1 r) c = ix2 r c :=
  funext fun a => Fin.ext (by match a with | ⟨0, _⟩ => rfl | ⟨1, _⟩ => rfl)

/-- A lane maximum over the rows of an `[n, k]` matrix, at column `c`: the fold of max over that column. -/
theorem multiReduction_max_cols_apply {n k : ℕ} (src : FVec Ideal ⟨2, ![n, k]⟩ .f32) (acc : BitVec 32)
    (h : (⟨2, ![n, k]⟩ : Shape).Reduces [0] ⟨1, ![k]⟩) (hφ : FKind.Formats .f32)
    (hacc : acc = FKind.maximumf.neutral .f32 hφ) (c : Fin k) :
    multiReduction .maximumf [0] ⟨1, ![k]⟩ src acc h hφ hacc (ix1 c)
      = (Finset.univ : Finset (Fin n)).fold max (Ideal.ofBits .f32 acc) (fun r => src (ix2 r c)) :=
  (Ideal.multiReduction_maximumf_single src acc h hφ hacc (ix1 c)).trans
    (Finset.fold_congr fun r _ => congrArg src (lift_cols h c r))

/-- A lane maximum over the columns of an `[n, k]` matrix, at row `r`: the fold of max over that row. -/
theorem multiReduction_max_rows_apply {n k : ℕ} (src : FVec Ideal ⟨2, ![n, k]⟩ .f32) (acc : BitVec 32)
    (h : (⟨2, ![n, k]⟩ : Shape).Reduces [1] ⟨1, ![n]⟩) (hφ : FKind.Formats .f32)
    (hacc : acc = FKind.maximumf.neutral .f32 hφ) (r : Fin n) :
    multiReduction .maximumf [1] ⟨1, ![n]⟩ src acc h hφ hacc (ix1 r)
      = (Finset.univ : Finset (Fin k)).fold max (Ideal.ofBits .f32 acc) (fun c => src (ix2 r c)) :=
  (Ideal.multiReduction_maximumf_single src acc h hφ hacc (ix1 r)).trans
    (Finset.fold_congr fun c _ => congrArg src (lift_rows h r c))

end Idealize.ShloMosaic.Gram

end
-- ==== Proof.LibRowSpread.lean ====
/-
  A vector laid along every row of a matrix, in a vector program's spelling.

  A vector of b entries is first viewed as a one-row matrix [1, b] (a shape cast) and that row is then broadcast to
  [a, b]. Read at (r, c) the result is the vector's entry c, for any extents a and b and any entry type.
-/
import Idealize.ShloMosaic.Lib.ValueIdx
import Idealize.ShloMosaic.Lib.ValueLayout

namespace Idealize.ShloMosaic.RowSpread

open Idealize.ShloMosaic Idealize.ShloMosaic.ValueIdx

/-- A vector viewed as one row and laid along every row of an [a, b] matrix reads, at (r, c), the vector at c. -/
theorem row_spread {α : Type} {a b : ℕ} (x : (⟨1, ![b]⟩ : Shape).Idx → α)
    (h1 : (⟨1, ![b]⟩ : Shape).ShapeCasts ⟨2, ![1, b]⟩) (hb : (⟨2, ![1, b]⟩ : Shape).Broadcasts ⟨2, ![a, b]⟩)
    (j : (⟨2, ![a, b]⟩ : Shape).Idx) :
    broadcastTo ⟨2, ![a, b]⟩ (shapeCast ⟨2, ![1, b]⟩ x h1) hb j = x (ix1 (j 1)) := by
  have e := eq_ix2 j
  rw [e]
  exact (broadcastTo_1b_ab_apply _ hb (j 0) (j 1)).trans (shapeCast_a_1a_apply x h1 0 (j 1))

end Idealize.ShloMosaic.RowSpread
-- ==== Proof.Payload.lean ====
/-
  What the two kernel bodies compute from the blocks they load, entry by entry.

  The binarizing body thresholds its block at one half. The fused body, on a block of 128 rows of the batch with the
  whole binary weight, the two bias vectors, the gated classifier weight and the decoder bias, computes the hidden code,
  the reconstruction and the class scores of those 128 rows: its three matrix products into a zero accumulator are the
  plain sums over the shared coordinate, a bias vector viewed as one row and laid along every row reads the vector at the
  column, a comparison widened to a word and converted signed is the comparison converted unsigned, and a change of float
  format is the identity on the extended reals.
-/
import proofs.«164970_j15006615734352_2_alg».proof.Proof.Gen.KernelIdeal.Skeleton
import proofs.«164970_j15006615734352_2_alg».proof.Proof.Spec
import proofs.«164970_j15006615734352_2_alg».proof.Proof.LibContract
import proofs.«164970_j15006615734352_2_alg».proof.Proof.LibGram
import proofs.«164970_j15006615734352_2_alg».proof.Proof.LibRowSpread
import Idealize.ShloMosaic.Lib.KernelVsHost
import Idealize.ShloMosaic.Lib.ValueLayout
import Idealize.ShloMosaic.PureOps.Ideal.Laws

noncomputable section

open scoped BigOperators

namespace Cert.Fused

open Cert.KernelIdeal Cert.KernelIdeal.Gen
open Idealize.ShloMosaic Idealize.ShloMosaic.ValueIdx Idealize.ShloMosaic.RowSpread

/-- The binarizing body: each entry of the block thresholded at one half. -/
theorem pay_bin (x : Vec Ideal S400x5000 .f32) :
    k0_pay1 (F := Ideal) x = fun j => fires 0x3F000000#32 (x j) := by
  funext j
  unfold k0_pay1
  show (sitofp (F := Ideal) .f32 (extui 32 (cmpf .oge x (broadcast S400x5000 (Scalar.ofBits (F := Ideal) .f32 0x3F000000#32)))
    natLt_1_32) j : EReal) = _
  rw [sitofp_extui_eq_uitofp]
  rfl

/-- The encoder product at an entry: the sum over the 5000 input coordinates. -/
theorem enc_apply (x0 : FVec Ideal S128x5000 .bf16) (x1 : FVec Ideal S2000x5000 .bf16) (j : S128x2000.Idx) :
    matmul dot_S128x5000_S2000x5000_S128x2000_1_1_0_0_n_n none x0 x1 (constant S128x2000 .f32 0x00000000#32) j
      = ∑ k : Fin 5000, x0 (ix2 (j 0) k) * x1 (ix2 (j 1) k) := by
  refine (Ideal.matmul_constant_zero_apply _ none x0 x1 j).trans ?_
  exact Gram.sum_contr_last dot_S128x5000_S2000x5000_S128x2000_1_1_0_0_n_n rfl rfl rfl rfl
    (fun j q => by
      unfold DotDims.lhsIdx
      rw [dif_neg (show ¬(0 : Fin S128x5000.rank) ∈ dot_S128x5000_S2000x5000_S128x2000_1_1_0_0_n_n.lhsBatch by decide),
        dif_pos (show (0 : Fin S128x5000.rank) ∈ dot_S128x5000_S2000x5000_S128x2000_1_1_0_0_n_n.lhsNonContracting by decide)]
      rfl)
    (fun j q => by
      unfold DotDims.rhsIdx
      rw [dif_neg (show ¬(0 : Fin S2000x5000.rank) ∈ dot_S128x5000_S2000x5000_S128x2000_1_1_0_0_n_n.rhsBatch by decide),
        dif_pos (show (0 : Fin S2000x5000.rank) ∈ dot_S128x5000_S2000x5000_S128x2000_1_1_0_0_n_n.rhsNonContracting by decide)]
      rfl)
    x0 x1 j

/-- The decoder product at an entry: the sum over the 2000 hidden coordinates. -/
theorem dec_apply (z : FVec Ideal S128x2000 .bf16) (x1 : FVec Ideal S2000x5000 .bf16) (j : S128x5000.Idx) :
    matmul dot_S128x2000_S2000x5000_S128x5000_1_0_0_1_n_n none z x1 (constant S128x5000 .f32 0x00000000#32) j
      = ∑ k : Fin 2000, z (ix2 (j 0) k) * x1 (ix2 k (j 1)) := by
  refine (Ideal.matmul_constant_zero_apply _ none z x1 j).trans ?_
  exact Contract2.sum_contr_eq_sum_fin dot_S128x2000_S2000x5000_S128x5000_1_0_0_1_n_n rfl rfl rfl rfl
    (fun j q => by
      unfold DotDims.lhsIdx
      rw [dif_neg (show ¬(0 : Fin S128x2000.rank) ∈ dot_S128x2000_S2000x5000_S128x5000_1_0_0_1_n_n.lhsBatch by decide),
        dif_pos (show (0 : Fin S128x2000.rank) ∈ dot_S128x2000_S2000x5000_S128x5000_1_0_0_1_n_n.lhsNonContracting by decide)]
      rfl)
    (fun j q => by
      unfold DotDims.rhsIdx
      rw [dif_neg (show ¬(1 : Fin S2000x5000.rank) ∈ dot_S128x2000_S2000x5000_S128x5000_1_0_0_1_n_n.rhsBatch by decide),
        dif_pos (show (1 : Fin S2000x5000.rank) ∈ dot_S128x2000_S2000x5000_S128x5000_1_0_0_1_n_n.rhsNonContracting by decide)]
      rfl)
    z x1 j

/-- The classifier product at an entry: the sum over the 2000 hidden coordinates. -/
theorem clf_apply (z : FVec Ideal S128x2000 .bf16) (x4 : FVec Ideal S50x2000 .bf16) (j : S128x50.Idx) :
    matmul dot_S128x2000_S50x2000_S128x50_1_1_0_0_n_n none z x4 (constant S128x50 .f32 0x00000000#32) j
      = ∑ k : Fin 2000, z (ix2 (j 0) k) * x4 (ix2 (j 1) k) := by
  refine (Ideal.matmul_constant_zero_apply _ none z x4 j).trans ?_
  exact Gram.sum_contr_last dot_S128x2000_S50x2000_S128x50_1_1_0_0_n_n rfl rfl rfl rfl
    (fun j q => by
      unfold DotDims.lhsIdx
      rw [dif_neg (show ¬(0 : Fin S128x2000.rank) ∈ dot_S128x2000_S50x2000_S128x50_1_1_0_0_n_n.lhsBatch by decide),
        dif_pos (show (0 : Fin S128x2000.rank) ∈ dot_S128x2000_S50x2000_S128x50_1_1_0_0_n_n.lhsNonContracting by decide)]
      rfl)
    (fun j q => by
      unfold DotDims.rhsIdx
      rw [dif_neg (show ¬(0 : Fin S50x2000.rank) ∈ dot_S128x2000_S50x2000_S128x50_1_1_0_0_n_n.rhsBatch by decide),
        dif_pos (show (0 : Fin S50x2000.rank) ∈ dot_S128x2000_S50x2000_S128x50_1_1_0_0_n_n.rhsNonContracting by decide)]
      rfl)
    z x4 j

/-- The fused body's first store: the hidden code of the block's 128 rows. -/
theorem pay_hid (x0 : Vec Ideal S128x5000 .f32) (x1 : Vec Ideal S2000x5000 .bf16) (x2 x3 : Vec Ideal S2000 .f32) :
    k1_pay1 (F := Ideal) x0 x1 x2 x3 = hidB (n := 128) x0 x1 x2 x3 := by
  funext j
  unfold k1_pay1
  rw [sitofp_extui_eq_uitofp]
  show FloatOps.uitofp (F := Ideal) .f32 (cmpf .oge _ _ j) = _
  rw [cmpf_apply, broadcast_apply, addf_apply, addf_apply, enc_apply, shapeCast_self, row_spread, row_spread]
  rfl

/-- The fused body's second store: the reconstruction of the block's 128 rows from their hidden code. -/
theorem pay_out (x0 : Vec Ideal S128x5000 .f32) (x1 : Vec Ideal S2000x5000 .bf16) (x2 x3 : Vec Ideal S2000 .f32)
    (x1' : Vec Ideal S2000x5000 .bf16) (x5 : Vec Ideal S5000 .f32) :
    k1_pay3 (F := Ideal) x0 x1 x2 x3 x1' x5 = outB (n := 128) (hidB (n := 128) x0 x1 x2 x3) x1' x5 := by
  funext j
  unfold k1_pay3 k1_pay2
  rw [pay_hid, sitofp_extui_eq_uitofp]
  show FloatOps.uitofp (F := Ideal) .f32 (cmpf .oge _ _ j) = _
  rw [cmpf_apply, broadcast_apply, addf_apply, dec_apply, shapeCast_self, row_spread]
  rfl

/-- The fused body's third store: the class scores of the block's 128 rows from their hidden code. -/
theorem pay_cls (x0 : Vec Ideal S128x5000 .f32) (x1 : Vec Ideal S2000x5000 .bf16) (x2 x3 : Vec Ideal S2000 .f32)
    (x4 : Vec Ideal S50x2000 .bf16) :
    k1_pay4 (F := Ideal) x0 x1 x2 x3 x4 = clsB (n := 128) (hidB (n := 128) x0 x1 x2 x3) x4 := by
  funext j
  unfold k1_pay4 k1_pay2
  rw [pay_hid, clf_apply, shapeCast_self]
  rfl

end Cert.Fused

end
-- ==== Proof.FusedRegion.lean ====
/-
  The second region: the network on the whole batch, 128 rows at a time.

  The grid has 32 points; point t loads rows 128 t … 128 t + 127 of the batch, and the binary weight, the biases and the
  gated classifier weight whole, and writes back the same rows of the hidden code, the reconstruction and the class
  scores. A row of each result depends on the same row of the batch only, so what a point writes back is its block of
  the whole-batch result; the 32 blocks tile the 4096 rows.
-/
import proofs.«164970_j15006615734352_2_alg».proof.Proof.Gen.KernelIdeal.Frame
import proofs.«164970_j15006615734352_2_alg».proof.Proof.Payload
import Idealize.ShloMosaic.Lib.Pipeline.Value

set_option maxRecDepth 16384

noncomputable section

open scoped BigOperators

namespace Cert.Fused

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the region is entered
variable (V : (c : Dev nD) → (b : Ref sig .tc) → Buf (Elt Ideal) ((c : Thread nD τ).loc b))

theorem zero_off2' : (![0, 0] : Fin 2 → Nat) = fun _ => 0 := funext fun a => by fin_cases a <;> rfl
theorem zero_off1 : (![0] : Fin 1 → Nat) = fun _ => 0 := funext fun a => by fin_cases a; rfl

/-- At point t the batch window and the three output windows sit at block row t; every other window is its whole
    array. -/
theorem fused_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem rows_ok (t : Fin cfg1.N) : t.val * 128 + 128 ≤ 4096 := by
  have h : t.val < grid1.N := t.isLt
  rw [N_1] at h
  omega

/-! ## The input blocks at a point -/

/-- The batch block at point t is rows 128 t … of the batch. -/
theorem blk_x (c : Dev nD) (t : Fin cfg1.N) :
    iblk1 V c 0 t = rowsFrom 128 (t.val * 128) (rows_ok t) (V c main_arg0) := by
  funext y
  show V c main_arg0 (((cfg1.win 0).blk t).view.emb y) = V c main_arg0 (ix2 ⟨t.val * 128 + (y 0).val, _⟩ (y 1))
  refine congrArg (V c main_arg0) (funext fun a => Fin.ext ?_)
  obtain ⟨e0, e1, -⟩ := fused_index t
  match a with
  | ⟨0, _⟩ => show win1_0.index t (0 : Fin 2) * 128 + 1 * (y 0).val = t.val * 128 + (y 0).val; rw [e0]; omega
  | ⟨1, _⟩ => show win1_0.index t (1 : Fin 2) * 5000 + 1 * (y 1).val = (y 1).val; rw [e1]; omega

/-- The binary weight is loaded whole. -/
theorem blk_wb (c : Dev nD) (t : Fin cfg1.N) : iblk1 V c 1 t = V c main_v0 := by
  funext y
  show V c main_v0 (((cfg1.win 1).blk t).view.emb y) = V c main_v0 y
  refine congrArg (V c main_v0) (funext fun a => Fin.ext ?_)
  obtain ⟨-, -, e0, e1, -⟩ := fused_index t
  match a with
  | ⟨0, _⟩ => show win1_1.index t (0 : Fin 2) * 2000 + 1 * (y 0).val = (y 0).val; rw [e0]; omega
  | ⟨1, _⟩ => show win1_1.index t (1 : Fin 2) * 5000 + 1 * (y 1).val = (y 1).val; rw [e1]; omega

/-- The encoder bias is loaded whole. -/
theorem blk_b (c : Dev nD) (t : Fin cfg1.N) : iblk1 V c 2 t = V c main_arg2 := by
  funext y
  show V c main_arg2 (((cfg1.win 2).blk t).view.emb y) = V c main_arg2 y
  refine congrArg (V c main_arg2) (funext fun a => Fin.ext ?_)
  obtain ⟨-, -, -, -, e0, -⟩ := fused_index t
  match a with
  | ⟨0, _⟩ => show win1_2.index t (0 : Fin 1) * 2000 + 1 * (y 0).val = (y 0).val; rw [e0]; omega

/-- The activation bias is loaded whole. -/
theorem blk_a (c : Dev nD) (t : Fin cfg1.N) : iblk1 V c 3 t = V c main_arg3 := by
  funext y
  show V c main_arg3 (((cfg1.win 3).blk t).view.emb y) = V c main_arg3 y
  refine congrArg (V c main_arg3) (funext fun a => Fin.ext ?_)
  obtain ⟨-, -, -, -, -, e0, -⟩ := fused_index t
  match a with
  | ⟨0, _⟩ => show win1_3.index t (0 : Fin 1) * 2000 + 1 * (y 0).val = (y 0).val; rw [e0]; omega

/-- The gated classifier weight is loaded whole. -/
theorem blk_fw (c : Dev nD) (t : Fin cfg1.N) : iblk1 V c 4 t = V c main_v9 := by
  funext y
  show V c main_v9 (((cfg1.win 4).blk t).view.emb y) = V c main_v9 y
  refine congrArg (V c main_v9) (funext fun a => Fin.ext ?_)
  obtain ⟨-, -, -, -, -, -, e0, e1, -⟩ := fused_index t
  match a with
  | ⟨0, _⟩ => show win1_4.index t (0 : Fin 2) * 50 + 1 * (y 0).val = (y 0).val; rw [e0]; omega
  | ⟨1, _⟩ => show win1_4.index t (1 : Fin 2) * 2000 + 1 * (y 1).val = (y 1).val; rw [e1]; omega

/-- The decoder bias is loaded whole. -/
theorem blk_a3 (c : Dev nD) (t : Fin cfg1.N) : iblk1 V c 5 t = V c main_arg4 := by
  funext y
  show V c main_arg4 (((cfg1.win 5).blk t).view.emb y) = V c main_arg4 y
  refine congrArg (V c main_arg4) (funext fun a => Fin.ext ?_)
  obtain ⟨-, -, -, -, -, -, -, -, e0, -⟩ := fused_index t
  match a with
  | ⟨0, _⟩ => show win1_5.index t (0 : Fin 1) * 5000 + 1 * (y 0).val = (y 0).val; rw [e0]; omega

/-! ## The output blocks at a point: rows 128 t … of a whole-batch array -/

theorem read_hid (t : Fin cfg1.N) (G : Mat 4096 2000) :
    ((cfg1.win 6).blk t).view.read (Elt Ideal) G = rowsFrom 128 (t.val * 128) (rows_ok t) G := by
  funext y
  show G (((cfg1.win 6).blk t).view.emb y) = G (ix2 ⟨t.val * 128 + (y 0).val, _⟩ (y 1))
  refine congrArg G (funext fun a => Fin.ext ?_)
  obtain ⟨-, -, -, -, -, -, -, -, -, e0, e1, -⟩ := fused_index t
  match a with
  | ⟨0, _⟩ => show win1_6.index t (0 : Fin 2) * 128 + 1 * (y 0).val = t.val * 128 + (y 0).val; rw [e0]; omega
  | ⟨1, _⟩ => show win1_6.index t (1 : Fin 2) * 2000 + 1 * (y 1).val = (y 1).val; rw [e1]; omega

theorem read_out (t : Fin cfg1.N) (G : Mat 4096 5000) :
    ((cfg1.win 7).blk t).view.read (Elt Ideal) G = rowsFrom 128 (t.val * 128) (rows_ok t) G := by
  funext y
  show G (((cfg1.win 7).blk t).view.emb y) = G (ix2 ⟨t.val * 128 + (y 0).val, _⟩ (y 1))
  refine congrArg G (funext fun a => Fin.ext ?_)
  obtain ⟨-, -, -, -, -, -, -, -, -, -, -, e0, e1, -⟩ := fused_index t
  match a with
  | ⟨0, _⟩ => show win1_7.index t (0 : Fin 2) * 128 + 1 * (y 0).val = t.val * 128 + (y 0).val; rw [e0]; omega
  | ⟨1, _⟩ => show win1_7.index t (1 : Fin 2) * 5000 + 1 * (y 1).val = (y 1).val; rw [e1]; omega

theorem read_cls (t : Fin cfg1.N) (G : Mat 4096 50) :
    ((cfg1.win 8).blk t).view.read (Elt Ideal) G = rowsFrom 128 (t.val * 128) (rows_ok t) G := by
  funext y
  show G (((cfg1.win 8).blk t).view.emb y) = G (ix2 ⟨t.val * 128 + (y 0).val, _⟩ (y 1))
  refine congrArg G (funext fun a => Fin.ext ?_)
  obtain ⟨-, -, -, -, -, -, -, -, -, -, -, -, -, e0, e1⟩ := fused_index t
  match a with
  | ⟨0, _⟩ => show win1_8.index t (0 : Fin 2) * 128 + 1 * (y 0).val = t.val * 128 + (y 0).val; rw [e0]; omega
  | ⟨1, _⟩ => show win1_8.index t (1 : Fin 2) * 50 + 1 * (y 1).val = (y 1).val; rw [e1]; omega

/-! ## What a point writes back -/

/-- The hidden-code block written back at point t is block t of the whole batch's hidden code. -/
theorem hid_flushed (c : Dev nD) (t : Fin cfg1.N) :
    (dat1 V c).flushed 6 t = ((cfg1.win 6).blk t).view.read (Elt Ideal)
      (hidB (V c main_arg0) (V c main_v0) (V c main_arg2) (V c main_arg3)) := by
  show (cfg1.win 6).cut (grid1.coords t) ((dat1 V c).after 6 t) = _
  rw [after1_6]
  unfold out1_6
  rw [View.canon_unit_zero zero_off2']
  simp only [View.ld_unit_zero (S := S128x5000) zero_off2', View.ld_unit_zero (S := S2000x5000) zero_off2',
    View.ld_unit_zero (S := S2000) zero_off1]
  rw [pay_hid, read_hid, blk_x, blk_wb, blk_b, blk_a]
  exact hidB_rows 128 (t.val * 128) (rows_ok t) _ _ _ _

/-- The reconstruction block written back at point t is block t of the whole batch's reconstruction. -/
theorem out_flushed (c : Dev nD) (t : Fin cfg1.N) :
    (dat1 V c).flushed 7 t = ((cfg1.win 7).blk t).view.read (Elt Ideal)
      (outB (hidB (V c main_arg0) (V c main_v0) (V c main_arg2) (V c main_arg3)) (V c main_v0) (V c main_arg4)) := by
  show (cfg1.win 7).cut (grid1.coords t) ((dat1 V c).after 7 t) = _
  rw [after1_7]
  unfold out1_7
  rw [View.canon_unit_zero zero_off2']
  simp only [View.ld_unit_zero (S := S128x5000) zero_off2', View.ld_unit_zero (S := S2000x5000) zero_off2',
    View.ld_unit_zero (S := S2000) zero_off1, View.ld_unit_zero (S := S5000) zero_off1]
  rw [pay_out, read_out, blk_x, blk_wb, blk_b, blk_a, blk_a3, hidB_rows]
  exact outB_rows 128 (t.val * 128) (rows_ok t) _ _ _

/-- The class-score block written back at point t is block t of the whole batch's class scores. -/
theorem cls_flushed (c : Dev nD) (t : Fin cfg1.N) :
    (dat1 V c).flushed 8 t = ((cfg1.win 8).blk t).view.read (Elt Ideal)
      (clsB (hidB (V c main_arg0) (V c main_v0) (V c main_arg2) (V c main_arg3)) (V c main_v9)) := by
  show (cfg1.win 8).cut (grid1.coords t) ((dat1 V c).after 8 t) = _
  rw [after1_8]
  unfold out1_8
  rw [View.canon_unit_zero zero_off2']
  simp only [View.ld_unit_zero (S := S128x5000) zero_off2', View.ld_unit_zero (S := S2000x5000) zero_off2',
    View.ld_unit_zero (S := S2000) zero_off1, View.ld_unit_zero (S := S50x2000) zero_off2']
  rw [pay_cls, read_cls, blk_x, blk_wb, blk_b, blk_a, blk_fw, hidB_rows]
  exact clsB_rows 128 (t.val * 128) (rows_ok t) _ _

end Cert.Fused

end
-- ==== Proof.FusedFinal.lean ====
/-
  The second region's three output arrays after the region.

  Row r of each output lies in the block of point r / 128, every point writes its blocks back, and what it writes is its
  block of the whole-batch result: so after the region each output array is that result, whatever it held before.
-/
import proofs.«164970_j15006615734352_2_alg».proof.Proof.FusedRegion
import Idealize.ShloMosaic.Lib.Pipeline.Value

set_option maxRecDepth 16384

noncomputable section

open scoped BigOperators

namespace Cert.Fused

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the region is entered
variable (V : (c : Dev nD) → (b : Ref sig .tc) → Buf (Elt Ideal) ((c : Thread nD τ).loc b))

/-- The point whose blocks hold row r. -/
def pointOf (r : Fin 4096) : Fin cfg1.N :=
  ⟨r.val / 128, by show r.val / 128 < grid1.N; rw [N_1]; have := r.isLt; omega⟩

theorem pointOf_val (r : Fin 4096) : (pointOf r).val = r.val / 128 := rfl

/-! ## The hidden code -/

theorem hid_mem_blk (t : Fin cfg1.N) (i : S4096x2000.Idx) :
    i ∈ ((cfg1.win 6).blk t).view.set ↔ ∀ a : Fin 2, win1_6.index t a * S128x2000.size a ≤ (i a).val
      ∧ (i a).val < win1_6.index t a * S128x2000.size a + S128x2000.size a := by
  show i ∈ ((View.whole main_v10_0).slice (win1_6.rect t)).set ↔ _
  rw [View.set_slice_whole, Rect.mem_set_unit]
  exact Iff.rfl

theorem hid_cover (i : S4096x2000.Idx) :
    ∃ t : Fin cfg1.N, (cfg1.win 6).flush t = true ∧ i ∈ ((cfg1.win 6).blk t).view.set := by
  have hi0 : (i 0).val < 4096 := (i 0).isLt
  have hi1 : (i 1).val < 2000 := (i 1).isLt
  obtain ⟨-, -, -, -, -, -, -, -, -, e0, e1, -⟩ := fused_index (pointOf ⟨(i 0).val, hi0⟩)
  have ht : (pointOf ⟨(i 0).val, hi0⟩).val = (i 0).val / 128 := rfl
  refine ⟨pointOf ⟨(i 0).val, hi0⟩, flush1_6 _, ?_⟩
  rw [hid_mem_blk]
  intro a
  match a with
  | ⟨0, _⟩ =>
    show win1_6.index _ (0 : Fin 2) * 128 ≤ (i 0).val ∧ (i 0).val < win1_6.index _ (0 : Fin 2) * 128 + 128
    rw [e0, ht]; omega
  | ⟨1, _⟩ =>
    show win1_6.index _ (1 : Fin 2) * 2000 ≤ (i 1).val ∧ (i 1).val < win1_6.index _ (1 : Fin 2) * 2000 + 2000
    rw [e1]; omega

/-- After the second region the hidden-code array is the whole batch's hidden code. -/
theorem hid_final (c : Dev nD) :
    (dat1 V c).arrAt 6 cfg1.N = hidB (V c main_arg0) (V c main_v0) (V c main_arg2) (V c main_arg3) :=
  (dat1 V c).arrAt_eq_of_cover 6 _ (fun t _ => hid_flushed V c t) hid_cover

/-! ## The reconstruction -/

theorem out_mem_blk (t : Fin cfg1.N) (i : S4096x5000.Idx) :
    i ∈ ((cfg1.win 7).blk t).view.set ↔ ∀ a : Fin 2, win1_7.index t a * S128x5000.size a ≤ (i a).val
      ∧ (i a).val < win1_7.index t a * S128x5000.size a + S128x5000.size a := by
  show i ∈ ((View.whole main_v10_1).slice (win1_7.rect t)).set ↔ _
  rw [View.set_slice_whole, Rect.mem_set_unit]
  exact Iff.rfl

theorem out_cover (i : S4096x5000.Idx) :
    ∃ t : Fin cfg1.N, (cfg1.win 7).flush t = true ∧ i ∈ ((cfg1.win 7).blk t).view.set := by
  have hi0 : (i 0).val < 4096 := (i 0).isLt
  have hi1 : (i 1).val < 5000 := (i 1).isLt
  obtain ⟨-, -, -, -, -, -, -, -, -, -, -, e0, e1, -⟩ := fused_index (pointOf ⟨(i 0).val, hi0⟩)
  have ht : (pointOf ⟨(i 0).val, hi0⟩).val = (i 0).val / 128 := rfl
  refine ⟨pointOf ⟨(i 0).val, hi0⟩, flush1_7 _, ?_⟩
  rw [out_mem_blk]
  intro a
  match a with
  | ⟨0, _⟩ =>
    show win1_7.index _ (0 : Fin 2) * 128 ≤ (i 0).val ∧ (i 0).val < win1_7.index _ (0 : Fin 2) * 128 + 128
    rw [e0, ht]; omega
  | ⟨1, _⟩ =>
    show win1_7.index _ (1 : Fin 2) * 5000 ≤ (i 1).val ∧ (i 1).val < win1_7.index _ (1 : Fin 2) * 5000 + 5000
    rw [e1]; omega

/-- After the second region the reconstruction array is the whole batch's reconstruction. -/
theorem out_final (c : Dev nD) :
    (dat1 V c).arrAt 7 cfg1.N
      = outB (hidB (V c main_arg0) (V c main_v0) (V c main_arg2) (V c main_arg3)) (V c main_v0) (V c main_arg4) :=
  (dat1 V c).arrAt_eq_of_cover 7 _ (fun t _ => out_flushed V c t) out_cover

/-! ## The class scores -/

theorem cls_mem_blk (t : Fin cfg1.N) (i : S4096x50.Idx) :
    i ∈ ((cfg1.win 8).blk t).view.set ↔ ∀ a : Fin 2, win1_8.index t a * S128x50.size a ≤ (i a).val
      ∧ (i a).val < win1_8.index t a * S128x50.size a + S128x50.size a := by
  show i ∈ ((View.whole main_v10_2).slice (win1_8.rect t)).set ↔ _
  rw [View.set_slice_whole, Rect.mem_set_unit]
  exact Iff.rfl

theorem cls_cover (i : S4096x50.Idx) :
    ∃ t : Fin cfg1.N, (cfg1.win 8).flush t = true ∧ i ∈ ((cfg1.win 8).blk t).view.set := by
  have hi0 : (i 0).val < 4096 := (i 0).isLt
  have hi1 : (i 1).val < 50 := (i 1).isLt
  obtain ⟨-, -, -, -, -, -, -, -, -, -, -, -, -, e0, e1⟩ := fused_index (pointOf ⟨(i 0).val, hi0⟩)
  have ht : (pointOf ⟨(i 0).val, hi0⟩).val = (i 0).val / 128 := rfl
  refine ⟨pointOf ⟨(i 0).val, hi0⟩, flush1_8 _, ?_⟩
  rw [cls_mem_blk]
  intro a
  match a with
  | ⟨0, _⟩ =>
    show win1_8.index _ (0 : Fin 2) * 128 ≤ (i 0).val ∧ (i 0).val < win1_8.index _ (0 : Fin 2) * 128 + 128
    rw [e0, ht]; omega
  | ⟨1, _⟩ =>
    show win1_8.index _ (1 : Fin 2) * 50 ≤ (i 1).val ∧ (i 1).val < win1_8.index _ (1 : Fin 2) * 50 + 50
    rw [e1]; omega

/-- After the second region the class-score array is the whole batch's class scores. -/
theorem cls_final (c : Dev nD) :
    (dat1 V c).arrAt 8 cfg1.N
      = clsB (hidB (V c main_arg0) (V c main_v0) (V c main_arg2) (V c main_arg3)) (V c main_v9) :=
  (dat1 V c).arrAt_eq_of_cover 8 _ (fun t _ => cls_flushed V c t) cls_cover

end Cert.Fused

end
-- ==== Proof.BinRegion.lean ====
/-
  The first region: the whole weight, binarized.

  The grid has five points; point t loads rows 400 t … 400 t + 399 of the weight and writes back the same rows of the
  output, each entry thresholded at one half. The five blocks tile the 2000 rows, so after the region the output array
  is the weight binarized, whatever it held before.
-/
import proofs.«164970_j15006615734352_2_alg».proof.Proof.Gen.KernelIdeal.Frame
import proofs.«164970_j15006615734352_2_alg».proof.Proof.Payload
import Idealize.ShloMosaic.Lib.Pipeline.Value

set_option maxRecDepth 16384

noncomputable section

open scoped BigOperators

namespace Cert.Fused

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffers' contents when the region is entered
variable (V : (c : Dev nD) → (b : Ref sig .tc) → Buf (Elt Ideal) ((c : Thread nD τ).loc b))

theorem zero_off2 : (![0, 0] : Fin 2 → Nat) = fun _ => 0 := funext fun a => by fin_cases a <;> rfl

/-- Both windows of the first region sit at block row t, block column 0, at point t. -/
theorem bin_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the binarized weight. -/
theorem bin_flushed (c : Dev nD) (t : Fin cfg0.N) :
    (dat0 V c).flushed 1 t = ((cfg0.win 1).blk t).view.read (Elt Ideal) (binW (V c main_arg1)) := by
  show (cfg0.win 1).cut (grid0.coords t) ((dat0 V c).after 1 t) = _
  rw [after0_1]
  unfold out0_1
  rw [View.canon_unit_zero zero_off2]
  simp only [View.ld_unit_zero (S := S400x5000) zero_off2]
  rw [pay_bin]
  obtain ⟨e0, e1, e2, e3⟩ := bin_index t
  funext y
  show fires 0x3F000000#32 (V c main_arg1 (((cfg0.win 0).blk t).view.emb y))
    = fires 0x3F000000#32 (V c main_arg1 (((cfg0.win 1).blk t).view.emb y))
  have h : ((cfg0.win 0).blk t).view.emb y = ((cfg0.win 1).blk t).view.emb y := by
    funext a; apply Fin.ext
    match a with
    | ⟨0, _⟩ =>
      show win0_0.index t (0 : Fin 2) * 400 + 1 * (y 0).val = win0_1.index t (0 : Fin 2) * 400 + 1 * (y 0).val
      rw [e0, e2]
    | ⟨1, _⟩ =>
      show win0_0.index t (1 : Fin 2) * 5000 + 1 * (y 1).val = win0_1.index t (1 : Fin 2) * 5000 + 1 * (y 1).val
      rw [e1, e3]
  rw [h]

/-- An index of the output is in point t's block iff each coordinate is in the block's range on its axis. -/
theorem bin_mem_blk (t : Fin cfg0.N) (i : S2000x5000.Idx) :
    i ∈ ((cfg0.win 1).blk t).view.set ↔ ∀ a : Fin 2, win0_1.index t a * S400x5000.size a ≤ (i a).val
      ∧ (i a).val < win0_1.index t a * S400x5000.size a + S400x5000.size a := by
  show i ∈ ((View.whole main_v0).slice (win0_1.rect t)).set ↔ _
  rw [View.set_slice_whole, Rect.mem_set_unit]
  exact Iff.rfl

/-- Every row of the output is in the block of the point its number divided by 400 names. -/
theorem bin_cover (i : S2000x5000.Idx) :
    ∃ t : Fin cfg0.N, (cfg0.win 1).flush t = true ∧ i ∈ ((cfg0.win 1).blk t).view.set := by
  have hi0 : (i 0).val < 2000 := (i 0).isLt
  have hi1 : (i 1).val < 5000 := (i 1).isLt
  have hN : grid0.N = 5 := N_0
  let t : Fin cfg0.N := ⟨(i 0).val / 400, by show (i 0).val / 400 < grid0.N; rw [hN]; omega⟩
  obtain ⟨-, -, e2, e3⟩ := bin_index t
  have ht : t.val = (i 0).val / 400 := rfl
  refine ⟨t, flush0_1 t, ?_⟩
  rw [bin_mem_blk]
  intro a
  match a with
  | ⟨0, _⟩ =>
    show win0_1.index t (0 : Fin 2) * 400 ≤ (i 0).val ∧ (i 0).val < win0_1.index t (0 : Fin 2) * 400 + 400
    rw [e2, ht]; omega
  | ⟨1, _⟩ =>
    show win0_1.index t (1 : Fin 2) * 5000 ≤ (i 1).val ∧ (i 1).val < win0_1.index t (1 : Fin 2) * 5000 + 5000
    rw [e3]; omega

/-- After the first region its output array is the binarized weight. -/
theorem bin_final (c : Dev nD) : (dat0 V c).arrAt 1 cfg0.N = binW (V c main_arg1) :=
  (dat0 V c).arrAt_eq_of_cover 1 (binW (V c main_arg1)) (fun t _ => bin_flushed V c t) bin_cover

end Cert.Fused

end
-- ==== Proof.Entry.lean ====
/-
  What the second region finds in its input arrays.

  Between the two regions the host computes the logistic gate of the classifier weight and writes nothing else that the
  second region reads. So the second region is entered with the batch, the biases and the decoder bias as launched, the
  first region's output array at the binarized weight, and the gate buffer at the gate of the launched classifier weight.
-/
import proofs.«164970_j15006615734352_2_alg».proof.Proof.BinRegion
import Idealize.ShloMosaic.Lib.StableHlo.Run

set_option maxRecDepth 16384

noncomputable section

namespace Cert.Fused

open Cert.KernelIdeal Cert.KernelIdeal.Gen
open Idealize.ShloMosaic Idealize.ShloMosaic.TcCoe Idealize.ShloMosaic.ValueIdx Idealize.SL.Sem
open Idealize.ShloMosaic.StableHlo
open Idealize.ShloMosaic.Pipeline (Dat Cfg Window)

variable (m : (ℓ : Loc nD τ sig) → Buf (Elt Ideal) ℓ) (ρ : Dev nD → PrngReg)

/-- The batch is as launched. -/
theorem entry_x (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans
    (W3_main_arg0 m ρ c)

/-- The encoder bias is as launched. -/
theorem entry_b (c : Dev nD) : V2 m ρ c main_arg2 = m ((c : Thread nD τ).loc main_arg2) :=
  ((W3_arr m ρ c 2).trans (((dat1 (V2 m ρ) c).arrAt_in 2 rfl _).trans (A_eq1 (V2 m ρ) c 2))).symm.trans
    (W3_main_arg2 m ρ c)

/-- The activation bias is as launched. -/
theorem entry_a (c : Dev nD) : V2 m ρ c main_arg3 = m ((c : Thread nD τ).loc main_arg3) :=
  ((W3_arr m ρ c 3).trans (((dat1 (V2 m ρ) c).arrAt_in 3 rfl _).trans (A_eq1 (V2 m ρ) c 3))).symm.trans
    (W3_main_arg3 m ρ c)

/-- The decoder bias is as launched. -/
theorem entry_a3 (c : Dev nD) : V2 m ρ c main_arg4 = m ((c : Thread nD τ).loc main_arg4) :=
  ((W3_arr m ρ c 5).trans (((dat1 (V2 m ρ) c).arrAt_in 5 rfl _).trans (A_eq1 (V2 m ρ) c 5))).symm.trans
    (W3_main_arg4 m ρ c)

/-- The first region's output, which no host operation writes, is the launched weight binarized. -/
theorem entry_wb (c : Dev nD) : V2 m ρ c main_v0 = binW (m ((c : Thread nD τ).loc main_arg1)) := by
  show StableHlo.after hostOps1 (W1 m ρ c) (Proc.devRef .tc main_v0) = _
  after_results
  exact (W1_arr m ρ c 1).trans (bin_final (V0 m ρ) c)

/-- The gate buffer holds the gate of the launched classifier weight. -/
theorem entry_fw (c : Dev nD) :
    V2 m ρ c main_v9 = gate bcast_S_S50x2000 (m ((c : Thread nD τ).loc main_arg5)) := by
  show StableHlo.after hostOps1 (W1 m ρ c) (Proc.devRef .tc main_v9) = _
  after_results
  rw [W1_of_ne m ρ c main_arg5 (by decide)]
  rfl

end Cert.Fused

end
-- ==== Proof.KernelValue.lean ====
/-
  The kernel program's three results as functions of the launched arguments.

  After the run the three result arrays are the second region's output arrays at what the region left in them: the
  hidden code, the reconstruction and the class scores of the whole batch, computed from the contents the region found
  — the launched batch and biases, the launched weight binarized by the first region, and the host's gate of the launched
  classifier weight. The arguments end as launched.
-/
import proofs.«164970_j15006615734352_2_alg».proof.Proof.KernelRun
import proofs.«164970_j15006615734352_2_alg».proof.Proof.FusedFinal
import proofs.«164970_j15006615734352_2_alg».proof.Proof.Entry

set_option maxRecDepth 16384

noncomputable section

namespace Cert.Fused

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The hidden code of the launched batch under the launched weight and biases. -/
abbrev hidOf (c : Dev nD) : Mat 4096 2000 :=
  hidB (m ((c : Thread nD τ).loc main_arg0)) (binW (m ((c : Thread nD τ).loc main_arg1)))
    (m ((c : Thread nD τ).loc main_arg2)) (m ((c : Thread nD τ).loc main_arg3))

/-- The hidden-code result. -/
theorem hid_value (c : Dev nD) : W3 m ρ c (Proc.devRef .tc main_v10_0) = hidOf m c := by
  refine (W3_arr m ρ c 6).trans ((hid_final (V2 m ρ) c).trans ?_)
  rw [entry_x, entry_wb, entry_b, entry_a]

/-- The reconstruction result. -/
theorem out_value (c : Dev nD) : W3 m ρ c (Proc.devRef .tc main_v10_1)
    = outB (hidOf m c) (binW (m ((c : Thread nD τ).loc main_arg1))) (m ((c : Thread nD τ).loc main_arg4)) := by
  refine (W3_arr m ρ c 7).trans ((out_final (V2 m ρ) c).trans ?_)
  rw [entry_x, entry_wb, entry_b, entry_a, entry_a3]

/-- The class-score result. -/
theorem cls_value (c : Dev nD) : W3 m ρ c (Proc.devRef .tc main_v10_2)
    = clsB (hidOf m c) (gate bcast_S_S50x2000 (m ((c : Thread nD τ).loc main_arg5))) := by
  refine (W3_arr m ρ c 8).trans ((cls_final (V2 m ρ) c).trans ?_)
  rw [entry_x, entry_wb, entry_b, entry_a, entry_fw]

/-- Every weakly fair execution of the kernel program ends, nothing faulting, with the three results at the network's
    values on the launched arguments and the arguments unchanged. -/
theorem kernel_run : θ_run defs (onTc (τ := τ) (main (F := Ideal))) ⟨m, fun _ => 0, ρ⟩ (fun r => ∀ c : Dev nD,
      r.2.mem ((c.tc : Thread nD τ).loc main_v10_1)
        = outB (hidOf m c) (binW (m ((c : Thread nD τ).loc main_arg1))) (m ((c : Thread nD τ).loc main_arg4))
      ∧ r.2.mem ((c.tc : Thread nD τ).loc main_v10_2)
        = clsB (hidOf m c) (gate bcast_S_S50x2000 (m ((c : Thread nD τ).loc main_arg5)))
      ∧ r.2.mem ((c.tc : Thread nD τ).loc main_v10_0) = hidOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c main_v10_1 (by decide)).trans (out_value m ρ c),
     (h c main_v10_2 (by decide)).trans (cls_value m ρ c),
     (h c main_v10_0 (by decide)).trans (hid_value m ρ c),
     (h c main_arg0 (by decide)).trans (W3_main_arg0 m ρ c),
     (h c main_arg1 (by decide)).trans (W3_main_arg1 m ρ c),
     (h c main_arg2 (by decide)).trans (W3_main_arg2 m ρ c),
     (h c main_arg3 (by decide)).trans (W3_main_arg3 m ρ c),
     (h c main_arg4 (by decide)).trans (W3_main_arg4 m ρ c),
     (h c main_arg5 (by decide)).trans (W3_main_arg5 m ρ c)⟩)
    (run_at m ρ)

end Cert.Fused

end
-- ==== Proof.RefSpec.lean ====
/-
  The reference program computes the network of the specification.

  Read one operation at a time at an index, the reference's three results are the hidden code, the class scores and
  the reconstruction of the specification: its transposes only exchange the two coordinates of an index, its
  broadcasts of a vector along the rows read the vector at the column, and its products are the plain sums over the
  shared coordinate.
-/
import proofs.«164970_j15006615734352_2_alg».proof.Proof.Gen.ReferenceIdeal.Read
import proofs.«164970_j15006615734352_2_alg».proof.Proof.Spec

noncomputable section

open scoped BigOperators

namespace Cert.Fused

open Cert.ReferenceIdeal Cert.ReferenceIdeal.Gen Cert.ReferenceIdeal.Read
open Idealize.ShloMosaic Idealize.ShloMosaic.ValueIdx

/-- The reference's binary weight is the weight binarized at one half. -/
theorem ref_binW (x1 : FVec Ideal S2000x5000 .f32) : val_main_v2 (F := Ideal) x1 = binW x1 := by
  funext j
  rw [val_main_v2_apply, val_main_v1_apply, val_main_v0_apply, val_main_cst_apply]
  rfl

/-- The reference's hidden code. -/
theorem ref_hid (x0 : FVec Ideal S4096x5000 .f32) (x1 : FVec Ideal S2000x5000 .f32) (x2 x3 : FVec Ideal S2000 .f32) :
    val_main_v13 (F := Ideal) x0 x1 x2 x3 = hidB x0 (binW x1) x2 x3 := by
  funext i
  have e1 : ∀ k, lidx_main_v4 i k = ix2 (i 0) k := fun k => funext fun a => Fin.ext (by
    match a with | ⟨0, _⟩ => rfl | ⟨1, _⟩ => rfl)
  have e2 : ∀ k, idx_main_v3 (ridx_main_v4 i k) = ix2 (i 1) k := fun k => funext fun a => Fin.ext (by
    match a with | ⟨0, _⟩ => rfl | ⟨1, _⟩ => rfl)
  have e3 : idx_main_v5 (idx_main_v6 i) = ix1 (i 1) := funext fun a => Fin.ext (by
    match a with | ⟨0, _⟩ => rfl)
  have e4 : idx_main_v8 (idx_main_v9 i) = ix1 (i 1) := funext fun a => Fin.ext (by
    match a with | ⟨0, _⟩ => rfl)
  rw [val_main_v13_apply, val_main_v12_apply, val_main_v11_apply, val_main_cst_0_apply, val_main_v10_apply,
    val_main_v9_apply, val_main_v8_apply, val_main_v7_apply, val_main_v6_apply, val_main_v5_apply, val_main_v4_apply]
  simp only [val_main_v3_apply, ref_binW, e1, e2, e3, e4]
  rfl

/-- The reference's gated classifier weight is the gate of the specification. -/
theorem ref_gate (x5 : FVec Ideal S50x2000 .f32) : val_main_v21 (F := Ideal) x5 = gate bcast_S_S50x2000 x5 := rfl

/-- The reference's class scores. -/
theorem ref_cls (x0 : FVec Ideal S4096x5000 .f32) (x1 : FVec Ideal S2000x5000 .f32) (x2 x3 : FVec Ideal S2000 .f32)
    (x5 : FVec Ideal S50x2000 .f32) :
    val_main_v23 (F := Ideal) x0 x1 x2 x3 x5 = clsB (hidB x0 (binW x1) x2 x3) (gate bcast_S_S50x2000 x5) := by
  funext i
  have e1 : ∀ k, lidx_main_v23 i k = ix2 (i 0) k := fun k => funext fun a => Fin.ext (by
    match a with | ⟨0, _⟩ => rfl | ⟨1, _⟩ => rfl)
  have e2 : ∀ k, idx_main_v22 (ridx_main_v23 i k) = ix2 (i 1) k := fun k => funext fun a => Fin.ext (by
    match a with | ⟨0, _⟩ => rfl | ⟨1, _⟩ => rfl)
  rw [val_main_v23_apply]
  simp only [val_main_v22_apply, ref_hid, ref_gate, e1, e2]
  rfl

/-- The reference's reconstruction. -/
theorem ref_out (x0 : FVec Ideal S4096x5000 .f32) (x1 : FVec Ideal S2000x5000 .f32) (x2 x3 : FVec Ideal S2000 .f32)
    (x4 : FVec Ideal S5000 .f32) :
    val_main_v30 (F := Ideal) x0 x1 x2 x3 x4 = outB (hidB x0 (binW x1) x2 x3) (binW x1) x4 := by
  funext i
  have e1 : ∀ k, lidx_main_v24 i k = ix2 (i 0) k := fun k => funext fun a => Fin.ext (by
    match a with | ⟨0, _⟩ => rfl | ⟨1, _⟩ => rfl)
  have e2 : ∀ k, ridx_main_v24 i k = ix2 k (i 1) := fun k => funext fun a => Fin.ext (by
    match a with | ⟨0, _⟩ => rfl | ⟨1, _⟩ => rfl)
  have e3 : idx_main_v25 (idx_main_v26 i) = ix1 (i 1) := funext fun a => Fin.ext (by
    match a with | ⟨0, _⟩ => rfl)
  rw [val_main_v30_apply, val_main_v29_apply, val_main_v28_apply, val_main_cst_4_apply, val_main_v27_apply,
    val_main_v26_apply, val_main_v25_apply, val_main_v24_apply]
  simp only [ref_hid, ref_binW, e1, e2, e3]
  rfl

end Cert.Fused

end
-- ==== Proof.lean ====
/-
  A binarized autoencoder with a classifier head, as two grid kernels against its array-level reference.

  The kernel program binarizes the encoder weight W at one half in a first region, lets the host compute the logistic
  gate of the classifier weight, and in a second region, 128 rows of the batch at a time, computes the hidden code
  z = [X · Wbᵀ + b + a ≥ 1], the reconstruction [z · Wb + a3 ≥ 1] and the class scores z · Gᵀ. The reference computes the
  same three arrays with whole-array operations. On the extended reals a change of float format is the identity, a
  matrix product into a zero accumulator is the host's product, both are the plain sum over the shared coordinate, and
  a comparison widened to a word and converted signed is the comparison converted unsigned: so the two programs compute
  one function of the arguments, entry by entry, with no rearrangement of any sum and no use of finiteness.

  The frames of the two kernel programs are the generated ones, the reference's frame is its generated run with the
  results dropped, the idealization rewrote nothing, and the value claim pairs the kernel program's run read at its
  result arrays with the reference's run read one operation at a time.
-/
import proofs.«164970_j15006615734352_2_alg».proof.Defs
import proofs.«164970_j15006615734352_2_alg».proof.Proof.Gen.Kernel
import proofs.«164970_j15006615734352_2_alg».proof.Proof.Gen.Kernel.Skeleton
import proofs.«164970_j15006615734352_2_alg».proof.Proof.Gen.Kernel.Launch
import proofs.«164970_j15006615734352_2_alg».proof.Proof.Gen.Kernel.Points
import proofs.«164970_j15006615734352_2_alg».proof.Proof.Gen.Kernel.Frame
import proofs.«164970_j15006615734352_2_alg».proof.Proof.Gen.KernelIdeal
import proofs.«164970_j15006615734352_2_alg».proof.Proof.Gen.KernelIdeal.Skeleton
import proofs.«164970_j15006615734352_2_alg».proof.Proof.Gen.KernelIdeal.Launch
import proofs.«164970_j15006615734352_2_alg».proof.Proof.Gen.KernelIdeal.Points
import proofs.«164970_j15006615734352_2_alg».proof.Proof.Gen.KernelIdeal.Frame
import proofs.«164970_j15006615734352_2_alg».proof.Proof.Gen.ReferenceIdeal
import proofs.«164970_j15006615734352_2_alg».proof.Proof.Gen.ReferenceIdeal.Run
import proofs.«164970_j15006615734352_2_alg».proof.Proof.Gen.ReferenceIdeal.Read
import proofs.«164970_j15006615734352_2_alg».proof.Proof.Gen.Pre_finite_inputs
import proofs.«164970_j15006615734352_2_alg».proof.Proof.KernelValue
import proofs.«164970_j15006615734352_2_alg».proof.Proof.RefSpec
import Idealize.ShloMosaic.Adequacy
import Idealize.ShloMosaic.Init

noncomputable section

namespace Cert.Proof

open Idealize.ShloMosaic Idealize.ShloMosaic.TcCoe Idealize.SL.Sem Cert.Fused

theorem frame_kernel : Cert.frame_Kernel := fun m ρ _ => Cert.Kernel.Gen.frame m ρ

theorem frame_kernelIdeal : Cert.frame_KernelIdeal := fun m ρ _ => Cert.KernelIdeal.Gen.frame m ρ

/-- The reference's run with its results dropped. -/
theorem frame_reference : Cert.frame_ReferenceIdeal := fun m ρ _ =>
  (θ_run Cert.ReferenceIdeal.defs _ _).mono (fun _ h c => (h c).2.2.2)
    (Cert.ReferenceIdeal.Value.run (F := Ideal) m ρ)

/-- The two idealized programs, from memories that agree on the arguments, end with the same three arrays: the
    reconstruction, the class scores and the hidden code of the specification on those arguments. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ((Cert.ReferenceIdeal.Read.val_main_v30_eq _ _ _ _ _).trans ((ref_out _ _ _ _ _).trans ?_))
    rw [(hagree c).1, (hagree c).2.1, (hagree c).2.2.1, (hagree c).2.2.2.1, (hagree c).2.2.2.2.1]
  · refine (h c).2.1.trans ((Cert.ReferenceIdeal.Read.val_main_v23_eq _ _ _ _ _).trans ((ref_cls _ _ _ _ _).trans ?_))
    rw [(hagree c).1, (hagree c).2.1, (hagree c).2.2.1, (hagree c).2.2.2.1, (hagree c).2.2.2.2.2]
  · refine (h c).2.2.1.trans ((Cert.ReferenceIdeal.Read.val_main_v13_eq _ _ _ _).trans ((ref_hid _ _ _ _).trans ?_))
    rw [(hagree c).1, (hagree c).2.1, (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
